-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x8192 : Shape := ⟨2, ![1024, 8192]⟩
abbrev S4096x1024 : Shape := ⟨2, ![4096, 1024]⟩
abbrev S16x4096 : Shape := ⟨2, ![16, 4096]⟩
abbrev S_ : Shape := ⟨0, ![]⟩

class Facts : Prop where
  bcast_S_S1024x8192 : S_.BroadcastsInDim S1024x8192 (![] : Fin 0 → Fin S1024x8192.rank)
  reducesTo_S1024x8192_S_d0_1 : S1024x8192.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  main_v18

def fn {F : FTy → Type} [FloatOps F] (main_arg0 : FVec F S1024x8192 .f32) (main_arg1 : FVec F S4096x1024 .f32) (main_arg2 : FVec F S4096x1024 .f32) (main_arg3 : FVec F S16x4096 .f32) : IVec S_ 1 :=
  let main_v0 : FVec F S1024x8192 .f32 := Host.absf main_arg0
  let main_cst : FVec F S_ .f32 := constant S_ .f32 0x7F800000#32
  let main_v1 : FVec F S1024x8192 .f32 := broadcastInDim S1024x8192 ![] bcast_S_S1024x8192 main_cst
  let main_v2 : IVec S1024x8192 1 := cmpf .olt main_v0 main_v1
  let main_c : IVec S_ 1 := constantI S_ 1 1#1
  let main_v3 : IVec S_ 1 := (fun x v => Host.reduce IntOp.andi x v reducesTo_S1024x8192_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_v13 main_v16
-- ==== Kernel.lean ====
abbrev S1024x8192 : Shape := ⟨2, ![1024, 8192]⟩
abbrev S4096x1024 : Shape := ⟨2, ![4096, 1024]⟩
abbrev S16x4096 : Shape := ⟨2, ![16, 4096]⟩
abbrev S4096x8192 : Shape := ⟨2, ![4096, 8192]⟩
abbrev S128x1024 : Shape := ⟨2, ![128, 1024]⟩
abbrev S16x128 : Shape := ⟨2, ![16, 128]⟩
abbrev S128x8192 : Shape := ⟨2, ![128, 8192]⟩
abbrev S128 : Shape := ⟨1, ![128]⟩
abbrev S128x1 : Shape := ⟨2, ![128, 1]⟩
abbrev S1x128 : Shape := ⟨2, ![1, 128]⟩

abbrev nBuf : Space → Nat
  | .hbm => 6
  | .vmem => 9
  | .smem => 0
  | _ => 0

abbrev bufTy : (tb : Table) → Fin (tcTables nBuf tb) → BufTy
  | .hbm, ⟨0, _⟩ => ⟨S1024x8192, .f32⟩
  | .hbm, ⟨1, _⟩ => ⟨S4096x1024, .f32⟩
  | .hbm, ⟨2, _⟩ => ⟨S4096x1024, .f32⟩
  | .hbm, ⟨3, _⟩ => ⟨S16x4096, .f32⟩
  | .hbm, ⟨4, _⟩ => ⟨S1024x8192, .bf16⟩
  | .hbm, ⟨5, _⟩ => ⟨S4096x8192, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1024x8192, .bf16⟩
  | .local _ .vmem, ⟨5, _⟩ => ⟨S16x128, .f32⟩
  | .local _ .vmem, ⟨6, _⟩ => ⟨S16x128, .f32⟩
  | .local _ .vmem, ⟨7, _⟩ => ⟨S128x8192, .f32⟩
  | .local _ .vmem, ⟨8, _⟩ => ⟨S128x8192, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  inb_S16x128_S16x128_0_0 : ∀ a, (![0, 0] : Fin 2 → Nat) a + S16x128.size a ≤ S16x128.size a
  h_S16x128 : 0 < S16x128.numel
  reduces_S128x1024_S128 : S128x1024.Reduces [1] S128
  shapeCasts_S128_S128x1 : S128.ShapeCasts S128x1
  broadcasts_S128x1_S128x1024 : S128x1.Broadcasts S128x1024
  reduces_S16x128_S128 : S16x128.Reduces [0] S128
  shapeCasts_S128_S1x128 : S128.ShapeCasts S1x128
  broadcasts_S1x128_S16x128 : S1x128.Broadcasts S16x128
  inb_S1024x8192_S1024x8192_0_0 : ∀ a, (![0, 0] : Fin 2 → Nat) a + S1024x8192.size a ≤ S1024x8192.size a
  h_S1024x8192 : 0 < S1024x8192.numel
  shapeCasts_S1024x8192_S1024x8192 : S1024x8192.ShapeCasts S1024x8192
  slices_S16x128_o1_0_S1x128 : S16x128.Slices ![1, 0] S1x128
  shapeCasts_S1x128_S128 : S1x128.ShapeCasts S128
  slices_S16x128_o2_0_S1x128 : S16x128.Slices ![2, 0] S1x128
  slices_S16x128_o3_0_S1x128 : S16x128.Slices ![3, 0] S1x128
  slices_S16x128_o4_0_S1x128 : S16x128.Slices ![4, 0] S1x128
  slices_S16x128_o5_0_S1x128 : S16x128.Slices ![5, 0] S1x128
  slices_S16x128_o6_0_S1x128 : S16x128.Slices ![6, 0] S1x128
  slices_S16x128_o7_0_S1x128 : S16x128.Slices ![7, 0] S1x128
  slices_S16x128_o8_0_S1x128 : S16x128.Slices ![8, 0] S1x128
  slices_S16x128_o9_0_S1x128 : S16x128.Slices ![9, 0] S1x128
  slices_S16x128_o10_0_S1x128 : S16x128.Slices ![10, 0] S1x128
  slices_S16x128_o11_0_S1x128 : S16x128.Slices ![11, 0] S1x128
  slices_S16x128_o12_0_S1x128 : S16x128.Slices ![12, 0] S1x128
  slices_S16x128_o13_0_S1x128 : S16x128.Slices ![13, 0] S1x128
  slices_S16x128_o14_0_S1x128 : S16x128.Slices ![14, 0] S1x128
  slices_S16x128_o15_0_S1x128 : S16x128.Slices ![15, 0] S1x128
  broadcasts_S128x1_S128x8192 : S128x1.Broadcasts S128x8192
  inb_S128x8192_S128x8192_0_0 : ∀ a, (![0, 0] : Fin 2 → Nat) a + S128x8192.size a ≤ S128x8192.size a
  h_S128x8192 : 0 < S128x8192.numel
  dot_S128x1024_S1024x8192_S128x8192_1_0_0_1_n_n_wf : DotDims.WF S128x1024 S1024x8192 S128x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x8192.size a ≤ S1024x8192.size a
  hwx0_2 : ∀ i : grid0.Coords, EltTy.bits .bf16 = 32 ∨ (Rect.block (s := S1024x8192) S1024x8192.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S16x4096.size a
  hwx0_3 : ∀ i : grid0.Coords, EltTy.bits .f32 = 32 ∨ (Rect.block (s := S16x4096) S16x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x8192.size a ≤ S4096x8192.size a
  hwx0_4 : ∀ i : grid0.Coords, EltTy.bits .f32 = 32 ∨ (Rect.block (s := S4096x8192) S128x8192.size (cc0_transform_4 i) (hinb0_4 i)).WholeWords (EltTy.packing .f32)

variable [Facts₀]

def dot_S128x1024_S1024x8192_S128x8192_1_0_0_1_n_n : DotDims S128x1024 S1024x8192 S128x8192 where
  lhsContracting := [1]
  rhsContracting := [0]
  lhsNonContracting := [0]
  rhsNonContracting := [1]
  lhsBatch := []
  rhsBatch := []
  wf := dot_S128x1024_S1024x8192_S128x8192_1_0_0_1_n_n_wf

abbrev win0_0 : Pipeline.Window sig grid0 :=
  Pipeline.Window.ofSpec (Memref.whole main_arg1) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x8192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x8192 : Shape := ⟨2, ![1024, 8192]⟩
abbrev S4096x1024 : Shape := ⟨2, ![4096, 1024]⟩
abbrev S16x4096 : Shape := ⟨2, ![16, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x8192 : Shape := ⟨2, ![4096, 8192]⟩
abbrev S16x4096x1 : Shape := ⟨3, ![16, 4096, 1]⟩
abbrev S1x4096x1 : Shape := ⟨3, ![1, 4096, 1]⟩

abbrev nBuf : Space → Nat
  | .hbm => 162
  | .vmem => 0
  | .smem => 0
  | _ => 0

abbrev hbmTy0_0 (i : Nat) : BufTy := match i % 128 with
  | 0 => ⟨S1024x8192, .f32⟩
  | 1 => ⟨S4096x1024, .f32⟩
  | 2 => ⟨S4096x1024, .f32⟩
  | 3 => ⟨S16x4096, .f32⟩
  | 4 => ⟨S_, .f32⟩
  | 5 => ⟨S4096, .f32⟩
  | 6 => ⟨S_, .f32⟩
  | 7 => ⟨S4096, .f32⟩
  | 8 => ⟨S4096, .f32⟩
  | 9 => ⟨S4096x1, .f32⟩
  | 10 => ⟨S4096x1024, .f32⟩
  | 11 => ⟨S4096x1024, .f32⟩
  | 12 => ⟨S4096x1024, .f32⟩
  | 13 => ⟨S_, .f32⟩
  | 14 => ⟨S4096, .f32⟩
  | 15 => ⟨S4096x1, .f32⟩
  | 16 => ⟨S4096x1024, .f32⟩
  | 17 => ⟨S4096x1024, .f32⟩
  | 18 => ⟨S_, .f32⟩
  | 19 => ⟨S4096, .f32⟩
  | 20 => ⟨S_, .f32⟩
  | 21 => ⟨S4096, .f32⟩
  | 22 => ⟨S4096, .f32⟩
  | 23 => ⟨S4096x1, .f32⟩
  | 24 => ⟨S4096x1024, .f32⟩
  | 25 => ⟨S4096x1024, .f32⟩
  | 26 => ⟨S4096x1024, .f32⟩
  | 27 => ⟨S_, .f32⟩
  | 28 => ⟨S4096, .f32⟩
  | 29 => ⟨S4096x1, .f32⟩
  | 30 => ⟨S4096x1024, .f32⟩
  | 31 => ⟨S4096x1024, .f32⟩
  | 32 => ⟨S_, .f32⟩
  | 33 => ⟨S4096, .f32⟩
  | 34 => ⟨S_, .f32⟩
  | 35 => ⟨S4096, .f32⟩
  | 36 => ⟨S4096, .f32⟩
  | 37 => ⟨S1x4096, .f32⟩
  | 38 => ⟨S16x4096, .f32⟩
  | 39 => ⟨S16x4096, .f32⟩
  | 40 => ⟨S16x4096, .f32⟩
  | 41 => ⟨S_, .f32⟩
  | 42 => ⟨S4096, .f32⟩
  | 43 => ⟨S1x4096, .f32⟩
  | 44 => ⟨S16x4096, .f32⟩
  | 45 => ⟨S16x4096, .f32⟩
  | 46 => ⟨S4096x8192, .f32⟩
  | 47 => ⟨S4096x8192, .f32⟩
  | 48 => ⟨S4096x8192, .f32⟩
  | 49 => ⟨S16x4096x1, .f32⟩
  | 50 => ⟨S1x4096x1, .f32⟩
  | 51 => ⟨S4096x1, .f32⟩
  | 52 => ⟨S4096x8192, .f32⟩
  | 53 => ⟨S4096x8192, .f32⟩
  | 54 => ⟨S1x4096x1, .f32⟩
  | 55 => ⟨S4096x1, .f32⟩
  | 56 => ⟨S4096x8192, .f32⟩
  | 57 => ⟨S4096x8192, .f32⟩
  | 58 => ⟨S4096x8192, .f32⟩
  | 59 => ⟨S4096x8192, .f32⟩
  | 60 => ⟨S1x4096x1, .f32⟩
  | 61 => ⟨S4096x1, .f32⟩
  | 62 => ⟨S4096x8192, .f32⟩
  | 63 => ⟨S4096x8192, .f32⟩
  | 64 => ⟨S4096x8192, .f32⟩
  | 65 => ⟨S1x4096x1, .f32⟩
  | 66 => ⟨S4096x1, .f32⟩
  | 67 => ⟨S4096x8192, .f32⟩
  | 68 => ⟨S4096x8192, .f32⟩
  | 69 => ⟨S4096x8192, .f32⟩
  | 70 => ⟨S4096x8192, .f32⟩
  | 71 => ⟨S1x4096x1, .f32⟩
  | 72 => ⟨S4096x1, .f32⟩
  | 73 => ⟨S4096x8192, .f32⟩
  | 74 => ⟨S4096x8192, .f32⟩
  | 75 => ⟨S4096x8192, .f32⟩
  | 76 => ⟨S1x4096x1, .f32⟩
  | 77 => ⟨S4096x1, .f32⟩
  | 78 => ⟨S4096x8192, .f32⟩
  | 79 => ⟨S_, .f32⟩
  | 80 => ⟨S4096x8192, .f32⟩
  | 81 => ⟨S4096x8192, .f32⟩
  | 82 => ⟨S4096x8192, .f32⟩
  | 83 => ⟨S4096x8192, .f32⟩
  | 84 => ⟨S4096x8192, .f32⟩
  | 85 => ⟨S4096x8192, .f32⟩
  | 86 => ⟨S1x4096x1, .f32⟩
  | 87 => ⟨S4096x1, .f32⟩
  | 88 => ⟨S4096x8192, .f32⟩
  | 89 => ⟨S4096x8192, .f32⟩
  | 90 => ⟨S4096x8192, .f32⟩
  | 91 => ⟨S4096x8192, .f32⟩
  | 92 => ⟨S4096x8192, .f32⟩
  | 93 => ⟨S1x4096x1, .f32⟩
  | 94 => ⟨S4096x1, .f32⟩
  | 95 => ⟨S4096x8192, .f32⟩
  | 96 => ⟨S4096x8192, .f32⟩
  | 97 => ⟨S_, .f32⟩
  | 98 => ⟨S4096x8192, .f32⟩
  | 99 => ⟨S4096x8192, .f32⟩
  | 100 => ⟨S4096x8192, .f32⟩
  | 101 => ⟨S4096x8192, .f32⟩
  | 102 => ⟨S4096x8192, .f32⟩
  | 103 => ⟨S1x4096x1, .f32⟩
  | 104 => ⟨S4096x1, .f32⟩
  | 105 => ⟨S4096x8192, .f32⟩
  | 106 => ⟨S_, .f32⟩
  | 107 => ⟨S4096x8192, .f32⟩
  | 108 => ⟨S4096x8192, .f32⟩
  | 109 => ⟨S4096x8192, .f32⟩
  | 110 => ⟨S_, .f32⟩
  | 111 => ⟨S4096x8192, .f32⟩
  | 112 => ⟨S4096x8192, .f32⟩
  | 113 => ⟨S4096x8192, .f32⟩
  | 114 => ⟨S4096x8192, .f32⟩
  | 115 => ⟨S4096x8192, .f32⟩
  | 116 => ⟨S1x4096x1, .f32⟩
  | 117 => ⟨S4096x1, .f32⟩
  | 118 => ⟨S_, .f32⟩
  | 119 => ⟨S4096x8192, .f32⟩
  | 120 => ⟨S4096x8192, .f32⟩
  | 121 => ⟨S4096x8192, .f32⟩
  | 122 => ⟨S4096x8192, .f32⟩
  | 123 => ⟨S4096x8192, .f32⟩
  | 124 => ⟨S1x4096x1, .f32⟩
  | 125 => ⟨S4096x1, .f32⟩
  | 126 => ⟨S_, .f32⟩
  | 127 => ⟨S4096x8192, .f32⟩
  | _ => ⟨S1024x8192, .f32⟩

abbrev hbmTy0_1 (i : Nat) : BufTy := match i % 128 with
  | 0 => ⟨S4096x8192, .f32⟩
  | 1 => ⟨S4096x8192, .f32⟩
  | 2 => ⟨S4096x8192, .f32⟩
  | 3 => ⟨S4096x8192, .f32⟩
  | 4 => ⟨S4096x8192, .f32⟩
  | 5 => ⟨S1x4096x1, .f32⟩
  | 6 => ⟨S4096x1, .f32⟩
  | 7 => ⟨S_, .f32⟩
  | 8 => ⟨S4096x8192, .f32⟩
  | 9 => ⟨S4096x8192, .f32⟩
  | 10 => ⟨S4096x8192, .f32⟩
  | 11 => ⟨S4096x8192, .f32⟩
  | 12 => ⟨S4096x8192, .f32⟩
  | 13 => ⟨S1x4096x1, .f32⟩
  | 14 => ⟨S4096x1, .f32⟩
  | 15 => ⟨S_, .f32⟩
  | 16 => ⟨S4096x8192, .f32⟩
  | 17 => ⟨S4096x8192, .f32⟩
  | 18 => ⟨S4096x8192, .f32⟩
  | 19 => ⟨S4096x8192, .f32⟩
  | 20 => ⟨S4096x8192, .f32⟩
  | 21 => ⟨S4096x8192, .f32⟩
  | 22 => ⟨S1x4096x1, .f32⟩
  | 23 => ⟨S4096x1, .f32⟩
  | 24 => ⟨S_, .f32⟩
  | 25 => ⟨S4096x8192, .f32⟩
  | 26 => ⟨S4096x8192, .f32⟩
  | 27 => ⟨S4096x8192, .f32⟩
  | 28 => ⟨S4096x8192, .f32⟩
  | 29 => ⟨S4096x8192, .f32⟩
  | 30 => ⟨S1x4096x1, .f32⟩
  | 31 => ⟨S4096x1, .f32⟩
  | 32 => ⟨S4096x8192, .f32⟩
  | 33 => ⟨S4096x8192, .f32⟩
  | _ => ⟨S1024x8192, .f32⟩

abbrev hbmTy (i : Nat) : BufTy := match i / 128 with
  | 0 => hbmTy0_0 i
  | 1 => hbmTy0_1 i
  | _ => ⟨S1024x8192, .f32⟩

abbrev bufTy : (tb : Table) → Fin (tcTables nBuf tb) → BufTy
  | .hbm, ⟨i, _⟩ => hbmTy i
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_8 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_cst_9 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_cst_10 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_cst_11 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_cst_12 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_cst_13 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_cst_14 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_cst_15 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_cst_16 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  reducesTo_S16x4096_S4096_d0 : S16x4096.ReducesTo [0] S4096
  bcast_S4096_S1x4096_1 : S4096.BroadcastsInDim S1x4096 (![1] : Fin 1 → Fin S1x4096.rank)
  bcast_S1x4096_S16x4096_0_1 : S1x4096.BroadcastsInDim S16x4096 (![0, 1] : Fin 2 → Fin S16x4096.rank)
  bcast_S16x4096_S16x4096x1_0_1 : S16x4096.BroadcastsInDim S16x4096x1 (![0, 1] : Fin 2 → Fin S16x4096x1.rank)
  slices_S16x4096x1_S1x4096x1_1_0_0 : S16x4096x1.Slices ![1, 0, 0] S1x4096x1
  shapeCasts_S1x4096x1_S4096x1 : S1x4096x1.ShapeCasts S4096x1
  bcast_S4096x1_S4096x8192_0_1 : S4096x1.BroadcastsInDim S4096x8192 (![0, 1] : Fin 2 → Fin S4096x8192.rank)
  slices_S16x4096x1_S1x4096x1_2_0_0 : S16x4096x1.Slices ![2, 0, 0] S1x4096x1
  slices_S16x4096x1_S1x4096x1_3_0_0 : S16x4096x1.Slices ![3, 0, 0] S1x4096x1
  slices_S16x4096x1_S1x4096x1_4_0_0 : S16x4096x1.Slices ![4, 0, 0] S1x4096x1
  slices_S16x4096x1_S1x4096x1_5_0_0 : S16x4096x1.Slices ![5, 0, 0] S1x4096x1
  slices_S16x4096x1_S1x4096x1_6_0_0 : S16x4096x1.Slices ![6, 0, 0] S1x4096x1
  bcast_S_S4096x8192 : S_.BroadcastsInDim S4096x8192 (![] : Fin 0 → Fin S4096x8192.rank)
  slices_S16x4096x1_S1x4096x1_7_0_0 : S16x4096x1.Slices ![7, 0, 0] S1x4096x1
  slices_S16x4096x1_S1x4096x1_8_0_0 : S16x4096x1.Slices ![8, 0, 0] S1x4096x1
  slices_S16x4096x1_S1x4096x1_9_0_0 : S16x4096x1.Slices ![9, 0, 0] S1x4096x1
  slices_S16x4096x1_S1x4096x1_10_0_0 : S16x4096x1.Slices ![10, 0, 0] S1x4096x1
  slices_S16x4096x1_S1x4096x1_11_0_0 : S16x4096x1.Slices ![11, 0, 0] S1x4096x1
  slices_S16x4096x1_S1x4096x1_12_0_0 : S16x4096x1.Slices ![12, 0, 0] S1x4096x1
  slices_S16x4096x1_S1x4096x1_13_0_0 : S16x4096x1.Slices ![13, 0, 0] S1x4096x1
  slices_S16x4096x1_S1x4096x1_14_0_0 : S16x4096x1.Slices ![14, 0, 0] S1x4096x1
  slices_S16x4096x1_S1x4096x1_15_0_0 : S16x4096x1.Slices ![15, 0, 0] S1x4096x1
  dot_S4096x1024_S1024x8192_S4096x8192_1_0_0_1_n_n_wf : DotDims.WF S4096x1024 S1024x8192 S4096x8192 [1] [0] [0] [1] [] []

variable [Facts₀]

def dot_S4096x1024_S1024x8192_S4096x8192_1_0_0_1_n_n : DotDims S4096x1024 S1024x8192 S4096x8192 where
  lhsContracting := [1]
  rhsContracting := [0]
  lhsNonContracting := [0]
  rhsNonContracting := [1]
  lhsBatch := []
  rhsBatch := []
  wf := dot_S4096x1024_S1024x8192_S4096x8192_1_0_0_1_n_n_wf

class Facts : Prop extends Facts₀ where

variable [Facts]
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibMaxReduce.lean ====
/-
  Maximum reductions of an `[a, b]` matrix over one of its two axes, read at an index, at the ideal values.

  On the extended reals a maximum reduction from a start value `s` is the running maximum `foldMax s x` of the
  reduced entries, a fold of `max` over the reduced axis's coordinates whose order does not matter. The vector unit's
  reduction and the host's one-operand reduce with a maximum body both read that way: over the LAST axis at a row `p`
  the entries are `x (p, k)`, over the FIRST axis at a column `c` they are `x (r, c)`.
  Joining the start value in once more changes nothing, since the fold is already above it.
-/
import Idealize.ShloMosaic.Lib.ValueIdx
import Idealize.ShloMosaic.PureOps.Ideal.Laws

noncomputable section

namespace Cert.LibMaxReduce

open Idealize.ShloMosaic Idealize.ShloMosaic.ValueIdx

/-- The maximum of a finite family of extended reals and a start value. -/
def foldMax {n : ℕ} (s : EReal) (x : Fin n → EReal) : EReal := (Finset.univ : Finset (Fin n)).fold max s x

/-- The running maximum is above its start value, so the maximum of the two is the running maximum. -/
theorem max_foldMax {n : ℕ} (s : EReal) (x : Fin n → EReal) : max s (foldMax s x) = foldMax s x :=
  max_eq_right ((Finset.le_fold_max s).mpr (Or.inl le_rfl))

/-- A float maximum reduction over the LAST axis of an `[a, b]` matrix, read at row `p`: the running maximum of that
    row's `b` entries from the accumulator's value. -/
theorem multiReduction_maximumf_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ src acc h hφ hacc (ix1 p)
      = foldMax (Ideal.ofBits .f32 acc) (fun k : Fin b => src (ix2 p k)) := by
  refine (Ideal.multiReduction_maximumf_single src acc h hφ hacc (ix1 p)).trans ?_
  unfold foldMax
  refine congrArg (fun f : Fin b → EReal => Finset.fold max (Ideal.ofBits .f32 acc) f Finset.univ) (funext fun k => congrArg src ?_)
  funext ax; apply Fin.ext
  match ax with
  | ⟨0, _⟩ => rfl
  | ⟨1, _⟩ => rfl

/-- A float maximum reduction over the FIRST axis of an `[a, b]` matrix, read at column `c`: the running maximum of
    that column's `a` entries from the accumulator's value. -/
theorem multiReduction_maximumf_firstAxis_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.maximumf.neutral .f32 hφ)
    (c : Fin b) :
    multiReduction .maximumf [0] ⟨1, ![b]⟩ src acc h hφ hacc (ix1 c)
      = foldMax (Ideal.ofBits .f32 acc) (fun r : Fin a => src (ix2 r c)) := by
  refine (Ideal.multiReduction_maximumf_single src acc h hφ hacc (ix1 c)).trans ?_
  unfold foldMax
  refine congrArg (fun f : Fin a → EReal => Finset.fold max (Ideal.ofBits .f32 acc) f Finset.univ) (funext fun r => congrArg src ?_)
  funext ax; apply Fin.ext
  match ax with
  | ⟨0, _⟩ => rfl
  | ⟨1, _⟩ => rfl

/-- The host's one-operand reduce with a maximum body over the LAST axis of an `[a, b]` matrix, read at row `p`: the
    running maximum of that row's entries from the initial value's element. -/
theorem hostReduce_maximumf_lastAxis_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := .f32)) x init h' hu (ix1 p)
      = foldMax (init (Shape.Idx.first hu)) (fun k : Fin b => x (ix2 p k)) := by
  refine (Host.reduce_eq_fold_single (FloatOps.maximumf (F := Ideal) (φ := .f32)) x init h' h hu (ix1 p)).trans ?_
  unfold foldMax
  refine congrArg (fun f : Fin b → EReal => Finset.fold max (init (Shape.Idx.first hu)) f Finset.univ) (funext fun k => congrArg x ?_)
  funext ax; apply Fin.ext
  match ax with
  | ⟨0, _⟩ => rfl
  | ⟨1, _⟩ => rfl

/-- The host's one-operand reduce with a maximum body over the FIRST axis of an `[a, b]` matrix, read at column `c`:
    the running maximum of that column's entries from the initial value's element. -/
theorem hostReduce_maximumf_firstAxis_apply {a b : ℕ} {u : Shape} (x : (⟨2, ![a, b]⟩ : Shape).Idx → EReal) (init : u.Idx → EReal)
    (h' : (⟨2, ![a, b]⟩ : Shape).ReducesTo [0] ⟨1, ![b]⟩) (h : (⟨2, ![a, b]⟩ : Shape).Reduces [0] ⟨1, ![b]⟩)
    (hu : 0 < u.numel) (c : Fin b) :
    Host.reduce (FloatOps.maximumf (F := Ideal) (φ := .f32)) x init h' hu (ix1 c)
      = foldMax (init (Shape.Idx.first hu)) (fun r : Fin a => x (ix2 r c)) := by
  refine (Host.reduce_eq_fold_single (FloatOps.maximumf (F := Ideal) (φ := .f32)) x init h' h hu (ix1 c)).trans ?_
  unfold foldMax
  refine congrArg (fun f : Fin a → EReal => Finset.fold max (init (Shape.Idx.first hu)) f Finset.univ) (funext fun r => congrArg x ?_)
  funext ax; apply Fin.ext
  match ax with
  | ⟨0, _⟩ => rfl
  | ⟨1, _⟩ => rfl

end Cert.LibMaxReduce

end
-- ==== Proof.SoftGate.lean ====
/-
  The soft logic-gate layer as one function of its four argument arrays, on the extended reals.

  For a neuron `r` and a batch column `n`:
  • the two selection rows `wa r`, `wb r` (1024 logits each) are turned into softmax weights, and the neuron's two
    soft inputs are the weighted sums a = Σ_k softmax(wa r)_k · prev(k, n) and b = Σ_k softmax(wb r)_k · prev(k, n);
  • the neuron's sixteen gate logits (column `r` of the table) are turned into softmax weights p_0 … p_15, and the output
    is the p-weighted sum of the real-valued relaxations of the sixteen two-input gates at (a, b), the constant-0 gate
    left out: p_1·ab + p_2·(a − ab) + p_3·a + … + p_14·(1 − ab) + p_15.
  A softmax weight is exp(x_k − M) / Σ_j exp(x_j − M) with M the running maximum of the family from −∞. The constants
  1, 2 and −∞ are kept as their f32 words: both programs carry the same words, so they are never evaluated.
  Sums associate to the left, in the order the terms are written, as both programs add them.
-/
import proofs.«124827_j16776142258879_1_alg».proof.Proof.LibMaxReduce

noncomputable section

namespace Cert.SoftGate

open Idealize.ShloMosaic Idealize.ShloMosaic.ValueIdx Cert.LibMaxReduce

/-- The softmax weight of member `k` of a finite family of logits: its exponential, shifted by the family's maximum,
    over the sum of all the shifted exponentials. -/
def soft {n : ℕ} (x : Fin n → EReal) (k : Fin n) : EReal :=
  Ideal.div (Ideal.exp (x k - foldMax (Ideal.ofBits .f32 0xFF800000#32) x))
    (∑ j : Fin n, Ideal.exp (x j - foldMax (Ideal.ofBits .f32 0xFF800000#32) x))

/-- The f32 word of 1. -/
abbrev one : EReal := Ideal.ofBits .f32 0x3F800000#32
/-- The f32 word of 2. -/
abbrev two : EReal := Ideal.ofBits .f32 0x40000000#32

/-- The weighted sum of the fifteen non-constant-zero soft gates at inputs `a`, `b`, with gate weights `p`. -/
def mix (p : Fin 16 → EReal) (a b : EReal) : EReal :=
  p 1 * (a * b) + p 2 * (a - a * b) + p 3 * a + p 4 * (b - a * b) + p 5 * b
    + p 6 * (a + b - two * (a * b)) + p 7 * (a + b - a * b) + p 8 * (one - (a + b - a * b))
    + p 9 * (one - (a + b - two * (a * b))) + p 10 * (one - b) + p 11 * (one - b + a * b)
    + p 12 * (one - a) + p 13 * (one - a + a * b) + p 14 * (one - a * b) + p 15

/-- The layer's output at neuron `r` and batch column `n`, from the previous layer's outputs `prev` [1024, 8192], the
    two selection-logit matrices `wa`, `wb` [4096, 1024] and the gate-logit table `tw` [16, 4096]. -/
def gate (prev : (⟨2, ![1024, 8192]⟩ : Shape).Idx → EReal) (wa wb : (⟨2, ![4096, 1024]⟩ : Shape).Idx → EReal)
    (tw : (⟨2, ![16, 4096]⟩ : Shape).Idx → EReal) (r : Fin 4096) (n : Fin 8192) : EReal :=
  mix (fun g => soft (fun g' : Fin 16 => tw (ix2 g' r)) g)
    (∑ k : Fin 1024, soft (fun k' : Fin 1024 => wa (ix2 r k')) k * prev (ix2 k n))
    (∑ k : Fin 1024, soft (fun k' : Fin 1024 => wb (ix2 r k')) k * prev (ix2 k n))

/-- The whole output array [4096, 8192]. -/
def layer (prev : (⟨2, ![1024, 8192]⟩ : Shape).Idx → EReal) (wa wb : (⟨2, ![4096, 1024]⟩ : Shape).Idx → EReal)
    (tw : (⟨2, ![16, 4096]⟩ : Shape).Idx → EReal) : (⟨2, ![4096, 8192]⟩ : Shape).Idx → EReal :=
  fun i => gate prev wa wb tw (i 0) (i 1)

end Cert.SoftGate

end
-- ==== Proof.KernelSoft.lean ====
/-
  The kernel body's two soft inputs of a row tile, read at an index, at the ideal values.

  A tile `x` holds 128 rows of 1024 selection logits. The body takes each row's maximum from −∞, keeps it as a
  column, spreads it back over the row, exponentiates the differences, sums each row the same way and divides: entry
  (p, k) of the result is the softmax weight of logit `k` within row `p` (`Cert.SoftGate.soft`). The change to the
  narrower float format before the product is the identity here, and the product with the resident [1024, 8192] array
  `w` into the zero accumulator is, at (p, n), the sum over k of weight (p, k) times w (k, n).
-/
import proofs.«124827_j16776142258879_1_alg».proof.Proof.Gen.KernelIdeal.Skeleton
import proofs.«124827_j16776142258879_1_alg».proof.Proof.LibKeepdims
import proofs.«124827_j16776142258879_1_alg».proof.Proof.LibPlainMatmul
import proofs.«124827_j16776142258879_1_alg».proof.Proof.SoftGate

noncomputable section

namespace Cert.KernelIdeal.Block

open Cert.KernelIdeal Cert.KernelIdeal.Gen Idealize.ShloMosaic Idealize.ShloMosaic.ValueIdx Cert.LibMaxReduce Cert.SoftGate

/-- The row maxima of a tile, spread back over the tile. -/
def rowMaxB (x : FVec Ideal S128x1024 .f32) : FVec Ideal S128x1024 .f32 :=
  broadcastTo S128x1024 (shapeCast S128x1 (multiReduction .maximumf [1] S128 x 0xFF800000#32 reduces_S128x1024_S128 (.inl rfl) rfl) shapeCasts_S128_S128x1) broadcasts_S128x1_S128x1024

/-- The exponentials of a tile's entries less their row's maximum. -/
def rowExp (x : FVec Ideal S128x1024 .f32) : FVec Ideal S128x1024 .f32 := exp (subf x (rowMaxB x))

/-- The row sums of those exponentials, spread back over the tile. -/
def rowSumB (x : FVec Ideal S128x1024 .f32) : FVec Ideal S128x1024 .f32 :=
  broadcastTo S128x1024 (shapeCast S128x1 (multiReduction .add [1] S128 (rowExp x) 0x00000000#32 reduces_S128x1024_S128 (.inl rfl) rfl) shapeCasts_S128_S128x1) broadcasts_S128x1_S128x1024

/-- The tile's row softmax as the body spells it. -/
def rowSoft (x : FVec Ideal S128x1024 .f32) : FVec Ideal S128x1024 .f32 := divf (rowExp x) (rowSumB x)

/-- At (p, k) the spread row maximum is the running maximum of row `p`. -/
theorem rowMaxB_apply (x : FVec Ideal S128x1024 .f32) (p : Fin 128) (k : Fin 1024) :
    rowMaxB x (ix2 p k) = foldMax (Ideal.ofBits .f32 0xFF800000#32) (fun k' : Fin 1024 => x (ix2 p k')) := by
  unfold rowMaxB
  refine (LibKeepdims.broadcastTo_a1_ab_apply _ broadcasts_S128x1_S128x1024 p k 0).trans ?_
  refine (LibKeepdims.shapeCast_a_a1_apply _ shapeCasts_S128_S128x1 p 0).trans ?_
  exact multiReduction_maximumf_lastAxis_apply x 0xFF800000#32 reduces_S128x1024_S128 (.inl rfl) rfl p

/-- At (p, k) the shifted exponential. -/
theorem rowExp_apply (x : FVec Ideal S128x1024 .f32) (p : Fin 128) (k : Fin 1024) :
    rowExp x (ix2 p k)
      = Ideal.exp (x (ix2 p k) - foldMax (Ideal.ofBits .f32 0xFF800000#32) (fun k' : Fin 1024 => x (ix2 p k'))) := by
  show Ideal.exp (x (ix2 p k) - rowMaxB x (ix2 p k)) = _
  rw [rowMaxB_apply]

/-- At (p, k) the spread row sum is the sum of row `p`'s shifted exponentials. -/
theorem rowSumB_apply (x : FVec Ideal S128x1024 .f32) (p : Fin 128) (k : Fin 1024) :
    rowSumB x (ix2 p k)
      = ∑ j : Fin 1024, Ideal.exp (x (ix2 p j) - foldMax (Ideal.ofBits .f32 0xFF800000#32) (fun k' : Fin 1024 => x (ix2 p k'))) := by
  unfold rowSumB
  refine (LibKeepdims.broadcastTo_a1_ab_apply _ broadcasts_S128x1_S128x1024 p k 0).trans ?_
  refine (LibKeepdims.shapeCast_a_a1_apply _ shapeCasts_S128_S128x1 p 0).trans ?_
  refine (LibKeepdims.multiReduction_add_lastAxis_apply (rowExp x) 0x00000000#32 reduces_S128x1024_S128 (.inl rfl) rfl p).trans ?_
  exact Finset.sum_congr rfl fun j _ => rowExp_apply x p j

/-- Entry (p, k) of the tile's row softmax is the softmax weight of logit `k` in row `p`. -/
theorem rowSoft_apply (x : FVec Ideal S128x1024 .f32) (p : Fin 128) (k : Fin 1024) :
    rowSoft x (ix2 p k) = soft (fun k' : Fin 1024 => x (ix2 p k')) k := by
  show Ideal.div (rowExp x (ix2 p k)) (rowSumB x (ix2 p k)) = _
  rw [rowExp_apply, rowSumB_apply]
  rfl

/-- The product of a tile's row softmax with the resident array, read at (p, n). -/
theorem softDot_apply (x : FVec Ideal S128x1024 .f32) (w : FVec Ideal S1024x8192 .bf16) (p : Fin 128) (n : Fin 8192) :
    FloatOps.matmul (DotDims.plain 128 1024 8192) none (truncf .bf16 (rowSoft x) bitsLt_bf16_f32)
        (shapeCast S1024x8192 w shapeCasts_S1024x8192_S1024x8192) (constant ⟨2, ![128, 8192]⟩ .f32 0x00000000#32) (ix2 p n)
      = ∑ k : Fin 1024, soft (fun k' : Fin 1024 => x (ix2 p k')) k * w (ix2 k n) := by
  refine (matmul_plain_zero_apply 128 1024 8192 none _ _ p n).trans ?_
  refine Finset.sum_congr rfl fun k _ => ?_
  rw [shapeCast_self]
  show rowSoft x (ix2 p k) * w (ix2 k n) = _
  rw [rowSoft_apply]

/-- The first soft input: the body's product of the first tile's softmax with the resident array. -/
theorem pay4_apply (x : FVec Ideal S128x1024 .f32) (w : FVec Ideal S1024x8192 .bf16) (p : Fin 128) (n : Fin 8192) :
    k0_pay4 (F := Ideal) x w (ix2 p n) = ∑ k : Fin 1024, soft (fun k' : Fin 1024 => x (ix2 p k')) k * w (ix2 k n) :=
  softDot_apply x w p n

/-- The second soft input: the same of the second tile. -/
theorem pay5_apply (x : FVec Ideal S128x1024 .f32) (w : FVec Ideal S1024x8192 .bf16) (p : Fin 128) (n : Fin 8192) :
    k0_pay5 (F := Ideal) x w (ix2 p n) = ∑ k : Fin 1024, soft (fun k' : Fin 1024 => x (ix2 p k')) k * w (ix2 k n) :=
  softDot_apply x w p n

end Cert.KernelIdeal.Block

end
-- ==== Proof.LibAxisSums.lean ====
/-
  Two readings of sums over small index sets:
  • at the ideal values a float sum reduction over the FIRST axis of an `[a, b]` matrix, read at column `c`, is the sum
    over `r : Fin a` of the entries `(r, c)` (the companion of the last-axis reading, which sums a row);
  • a rank-1 index set `[n]` is its one coordinate's range, so a sum over it is the sum over `Fin n` at `ix1`.
-/
import Idealize.ShloMosaic.Lib.ValueIdx
import Idealize.ShloMosaic.PureOps.Ideal.Laws

noncomputable section

open scoped BigOperators

namespace Cert.LibAxisSums

open Idealize.ShloMosaic Idealize.ShloMosaic.ValueIdx

/-- At the ideal values a float sum reduction over the FIRST axis of an `[a, b]` matrix, read at column `c`, is the sum
    of that column's `a` entries. -/
theorem multiReduction_add_firstAxis_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.add.neutral .f32 hφ)
    (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src ?_
  funext ax; apply Fin.ext
  match ax with
  | ⟨0, _⟩ => rfl
  | ⟨1, _⟩ => rfl

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

end Cert.LibAxisSums

end
-- ==== Proof.KernelGates.lean ====
/-
  The kernel body's gate weights and its fifteen-term sum, read at an index, at the ideal values.

  A tile `x` holds, for each of 128 neurons (columns), its sixteen gate logits (rows). The body takes each column's
  maximum from −∞, keeps it as a row, spreads it back down the column, exponentiates the differences, sums each column
  the same way and divides: entry (g, p) of the result is the softmax weight of gate `g` for neuron `p`
  (`Cert.SoftGate.soft`). Row `g` of that result, cut out, turned into a column and spread over the [128, 8192]
  output tile, reads at (p, n) the weight of gate `g` for neuron `p`. With `A`, `B` the tile's two soft inputs the
  body then adds the fifteen weighted gate values in order: at (p, n) that is `Cert.SoftGate.mix` of the neuron's
  weights at A (p, n), B (p, n).
-/
import proofs.«124827_j16776142258879_1_alg».proof.Proof.Gen.KernelIdeal.Skeleton
import proofs.«124827_j16776142258879_1_alg».proof.Proof.LibKeepdims
import proofs.«124827_j16776142258879_1_alg».proof.Proof.LibAxisSums
import proofs.«124827_j16776142258879_1_alg».proof.Proof.SoftGate

noncomputable section

namespace Cert.KernelIdeal.Block

open Cert.KernelIdeal Cert.KernelIdeal.Gen Idealize.ShloMosaic Idealize.ShloMosaic.ValueIdx Cert.LibMaxReduce Cert.SoftGate

/-! ## The gate table's column softmax -/

/-- The column maxima of a gate-logit tile, spread back down the columns. -/
def colMaxB (x : FVec Ideal S16x128 .f32) : FVec Ideal S16x128 .f32 :=
  broadcastTo S16x128 (shapeCast S1x128 (multiReduction .maximumf [0] S128 x 0xFF800000#32 reduces_S16x128_S128 (.inl rfl) rfl) shapeCasts_S128_S1x128) broadcasts_S1x128_S16x128

/-- The exponentials of the tile's entries less their column's maximum. -/
def colExp (x : FVec Ideal S16x128 .f32) : FVec Ideal S16x128 .f32 := exp (subf x (colMaxB x))

/-- The column sums of those exponentials, spread back down the columns. -/
def colSumB (x : FVec Ideal S16x128 .f32) : FVec Ideal S16x128 .f32 :=
  broadcastTo S16x128 (shapeCast S1x128 (multiReduction .add [0] S128 (colExp x) 0x00000000#32 reduces_S16x128_S128 (.inl rfl) rfl) shapeCasts_S128_S1x128) broadcasts_S1x128_S16x128

theorem colMaxB_apply (x : FVec Ideal S16x128 .f32) (g : Fin 16) (p : Fin 128) :
    colMaxB x (ix2 g p) = foldMax (Ideal.ofBits .f32 0xFF800000#32) (fun g' : Fin 16 => x (ix2 g' p)) := by
  unfold colMaxB
  refine (broadcastTo_1b_ab_apply _ broadcasts_S1x128_S16x128 g p).trans ?_
  refine (shapeCast_a_1a_apply _ shapeCasts_S128_S1x128 0 p).trans ?_
  exact multiReduction_maximumf_firstAxis_apply x 0xFF800000#32 reduces_S16x128_S128 (.inl rfl) rfl p

theorem colExp_apply (x : FVec Ideal S16x128 .f32) (g : Fin 16) (p : Fin 128) :
    colExp x (ix2 g p)
      = Ideal.exp (x (ix2 g p) - foldMax (Ideal.ofBits .f32 0xFF800000#32) (fun g' : Fin 16 => x (ix2 g' p))) := by
  show Ideal.exp (x (ix2 g p) - colMaxB x (ix2 g p)) = _
  rw [colMaxB_apply]

theorem colSumB_apply (x : FVec Ideal S16x128 .f32) (g : Fin 16) (p : Fin 128) :
    colSumB x (ix2 g p)
      = ∑ j : Fin 16, Ideal.exp (x (ix2 j p) - foldMax (Ideal.ofBits .f32 0xFF800000#32) (fun g' : Fin 16 => x (ix2 g' p))) := by
  unfold colSumB
  refine (broadcastTo_1b_ab_apply _ broadcasts_S1x128_S16x128 g p).trans ?_
  refine (shapeCast_a_1a_apply _ shapeCasts_S128_S1x128 0 p).trans ?_
  refine (LibAxisSums.multiReduction_add_firstAxis_apply (colExp x) 0x00000000#32 reduces_S16x128_S128 (.inl rfl) rfl p).trans ?_
  exact Finset.sum_congr rfl fun j _ => colExp_apply x j p

/-- Entry (g, p) of the body's gate weights is the softmax weight of gate `g` among neuron `p`'s sixteen logits. -/
theorem pay2_apply (x : FVec Ideal S16x128 .f32) (g : Fin 16) (p : Fin 128) :
    k0_pay2 (F := Ideal) x (ix2 g p) = soft (fun g' : Fin 16 => x (ix2 g' p)) g := by
  show Ideal.div (colExp x (ix2 g p)) (colSumB x (ix2 g p)) = _
  rw [colExp_apply, colSumB_apply]
  rfl

/-! ## One gate's weights as a column, and spread over the output tile -/

/-- Row `o` of a [16, 128] tile cut out and turned into a [128, 1] column. -/
def gateCol (T : FVec Ideal S16x128 .f32) (o : ℕ) (h : S16x128.Slices ![o, 0] S1x128) : FVec Ideal S128x1 .f32 :=
  shapeCast S128x1 (shapeCast S128 (extractStridedSlice S1x128 ![o, 0] T h) shapeCasts_S1x128_S128) shapeCasts_S128_S128x1

/-- That column spread over the [128, 8192] output tile. -/
def gateSpread (T : FVec Ideal S16x128 .f32) (o : ℕ) (h : S16x128.Slices ![o, 0] S1x128) : FVec Ideal S128x8192 .f32 :=
  broadcastTo S128x8192 (gateCol T o h) broadcasts_S128x1_S128x8192

/-- The column's entry of row `p` is the tile's entry (o, p). -/
theorem gateCol_apply (T : FVec Ideal S16x128 .f32) (o : ℕ) (ho : o < 16) (h : S16x128.Slices ![o, 0] S1x128) (p : Fin 128) (u : Fin 1) :
    gateCol T o h (ix2 p u) = T (ix2 (⟨o, ho⟩ : Fin 16) p) := by
  unfold gateCol
  refine (LibKeepdims.shapeCast_a_a1_apply _ shapeCasts_S128_S128x1 p u).trans ?_
  refine (shapeCast_1a_a_apply _ shapeCasts_S1x128_S128 p).trans ?_
  refine extractStridedSlice_apply ![o, 0] T h (ix2 (0 : Fin 1) p) (ix2 (⟨o, ho⟩ : Fin 16) p) fun a => ?_
  match a with
  | ⟨0, _⟩ => show o = o + 0; omega
  | ⟨1, _⟩ => show p.val = 0 + p.val; omega

/-- Spread over the output tile it reads, at (p, n), the tile's entry (o, p). -/
theorem gateSpread_apply (T : FVec Ideal S16x128 .f32) (o : ℕ) (ho : o < 16) (h : S16x128.Slices ![o, 0] S1x128) (p : Fin 128) (n : Fin 8192) :
    gateSpread T o h (ix2 p n) = T (ix2 (⟨o, ho⟩ : Fin 16) p) :=
  (LibKeepdims.broadcastTo_a1_ab_apply _ broadcasts_S128x1_S128x8192 p n 0).trans (gateCol_apply T o ho h p 0)

/-! ## The fifteen-term sum -/

/-- What the body stores, as it spells it, over the gate weights `T` and the two soft inputs `A`, `B`. -/
def bodySum (T : FVec Ideal S16x128 .f32) (A B : FVec Ideal S128x8192 .f32) : FVec Ideal S128x8192 .f32 :=
  k0_pay1 (F := Ideal) (k0_pay21 A B (mulf A B) (k0_pay9 T) (k0_pay10 T) (k0_pay11 T) (k0_pay12 T) (k0_pay13 T) (k0_pay14 T) (k0_pay15 T)
      (k0_pay16 T) (k0_pay17 T) (k0_pay19 T A B (mulf A B) (gateCol T 1 slices_S16x128_o1_0_S1x128) (gateCol T 2 slices_S16x128_o2_0_S1x128))
      (k0_pay20 A B (mulf A B)))
    (k0_pay22 (k0_pay18 T))

/-- At (p, n) it is the mix of neuron `p`'s gate weights at the two soft inputs' values there. -/
theorem bodySum_apply (T : FVec Ideal S16x128 .f32) (A B : FVec Ideal S128x8192 .f32) (p : Fin 128) (n : Fin 8192) :
    bodySum T A B (ix2 p n) = mix (fun g : Fin 16 => T (ix2 g p)) (A (ix2 p n)) (B (ix2 p n)) := by
  have e : ∀ (o : ℕ) (ho : o < 16) (h : S16x128.Slices ![o, 0] S1x128), gateSpread T o h (ix2 p n) = T (ix2 (⟨o, ho⟩ : Fin 16) p) :=
    fun o ho h => gateSpread_apply T o ho h p n
  show gateSpread T 1 slices_S16x128_o1_0_S1x128 (ix2 p n) * (A (ix2 p n) * B (ix2 p n))
      + gateSpread T 2 slices_S16x128_o2_0_S1x128 (ix2 p n) * (A (ix2 p n) - A (ix2 p n) * B (ix2 p n))
      + gateSpread T 3 slices_S16x128_o3_0_S1x128 (ix2 p n) * A (ix2 p n)
      + gateSpread T 4 slices_S16x128_o4_0_S1x128 (ix2 p n) * (B (ix2 p n) - A (ix2 p n) * B (ix2 p n))
      + gateSpread T 5 slices_S16x128_o5_0_S1x128 (ix2 p n) * B (ix2 p n)
      + gateSpread T 6 slices_S16x128_o6_0_S1x128 (ix2 p n) * (A (ix2 p n) + B (ix2 p n) - two * (A (ix2 p n) * B (ix2 p n)))
      + gateSpread T 7 slices_S16x128_o7_0_S1x128 (ix2 p n) * (A (ix2 p n) + B (ix2 p n) - A (ix2 p n) * B (ix2 p n))
      + gateSpread T 8 slices_S16x128_o8_0_S1x128 (ix2 p n) * (one - (A (ix2 p n) + B (ix2 p n) - A (ix2 p n) * B (ix2 p n)))
      + gateSpread T 9 slices_S16x128_o9_0_S1x128 (ix2 p n) * (one - (A (ix2 p n) + B (ix2 p n) - two * (A (ix2 p n) * B (ix2 p n))))
      + gateSpread T 10 slices_S16x128_o10_0_S1x128 (ix2 p n) * (one - B (ix2 p n))
      + gateSpread T 11 slices_S16x128_o11_0_S1x128 (ix2 p n) * (one - B (ix2 p n) + A (ix2 p n) * B (ix2 p n))
      + gateSpread T 12 slices_S16x128_o12_0_S1x128 (ix2 p n) * (one - A (ix2 p n))
      + gateSpread T 13 slices_S16x128_o13_0_S1x128 (ix2 p n) * (one - A (ix2 p n) + A (ix2 p n) * B (ix2 p n))
      + gateSpread T 14 slices_S16x128_o14_0_S1x128 (ix2 p n) * (one - A (ix2 p n) * B (ix2 p n))
      + gateSpread T 15 slices_S16x128_o15_0_S1x128 (ix2 p n) = _
  rw [e 1 (by decide), e 2 (by decide), e 3 (by decide), e 4 (by decide), e 5 (by decide), e 6 (by decide), e 7 (by decide), e 8 (by decide), e 9 (by decide), e 10 (by decide), e 11 (by decide), e 12 (by decide), e 13 (by decide), e 14 (by decide), e 15 (by decide)]
  rfl

end Cert.KernelIdeal.Block

end
-- ==== Proof.KernelBlock.lean ====
/-
  What the kernel body leaves in the output tile, read at an index, at the ideal values.

  The body loads its four input blocks whole and stores its result whole, so the output tile after the body is the
  body's stored value of the four blocks: at (p, n) the mix of neuron `p`'s softmax gate weights (column `p` of the
  gate-logit block) at the two soft inputs Σ_k softmax(row p of a selection block)_k · w (k, n). That value reads only
  row `p` of the two selection blocks, column `p` of the gate block and column `n` of the resident array, so if those
  agree with row `r`, column `r` and column `n'` of the whole arrays, it is the layer's value at (r, n').
-/
import proofs.«124827_j16776142258879_1_alg».proof.Proof.Gen.KernelIdeal.Frame
import proofs.«124827_j16776142258879_1_alg».proof.Proof.KernelSoft
import proofs.«124827_j16776142258879_1_alg».proof.Proof.KernelGates

noncomputable section

namespace Cert.KernelIdeal.Block

open Cert.KernelIdeal Cert.KernelIdeal.Gen Idealize.ShloMosaic Idealize.ShloMosaic.ValueIdx Cert.LibMaxReduce Cert.SoftGate

/-- The zero offsets of a whole-block access, as the constant function. -/
theorem hz : (![0, 0] : Fin 2 → Nat) = fun _ => 0 := funext fun a => by fin_cases a <;> rfl

/-- The output tile after the body, at (p, n), from the four input blocks. -/
theorem out_apply (x0 x1 : FVec Ideal S128x1024 .f32) (x2 : FVec Ideal S1024x8192 .bf16) (x3 : FVec Ideal S16x128 .f32)
    (p : Fin 128) (n : Fin 8192) :
    out0_4 (F := Ideal) x0 x1 x2 x3 (ix2 p n)
      = mix (fun g : Fin 16 => soft (fun g' : Fin 16 => x3 (ix2 g' p)) g)
          (∑ k : Fin 1024, soft (fun k' : Fin 1024 => x0 (ix2 p k')) k * x2 (ix2 k n))
          (∑ k : Fin 1024, soft (fun k' : Fin 1024 => x1 (ix2 p k')) k * x2 (ix2 k n)) := by
  unfold out0_4
  rw [View.canon_unit_zero hz]
  simp only [View.ld_unit_zero (S := S128x1024) hz, View.ld_unit_zero (S := S1024x8192) hz, View.ld_unit_zero (S := S16x128) hz]
  refine (bodySum_apply (k0_pay2 x3) (k0_pay4 x0 x2) (k0_pay5 x1 x2) p n).trans ?_
  rw [pay4_apply, pay5_apply]
  exact congrArg (fun f : Fin 16 → EReal => mix f _ _) (funext fun g => pay2_apply x3 g p)

/-- A tile's value at (p, n) is the layer's value at (r, n') when the rows and columns it reads are those of the whole
    arrays there. -/
theorem mix_eq_gate (T : (⟨2, ![16, 128]⟩ : Shape).Idx → EReal) (X0 X1 : (⟨2, ![128, 1024]⟩ : Shape).Idx → EReal)
    (W : (⟨2, ![1024, 8192]⟩ : Shape).Idx → EReal)
    (prev : (⟨2, ![1024, 8192]⟩ : Shape).Idx → EReal) (wa wb : (⟨2, ![4096, 1024]⟩ : Shape).Idx → EReal)
    (tw : (⟨2, ![16, 4096]⟩ : Shape).Idx → EReal) (p : Fin 128) (n : Fin 8192) (r : Fin 4096) (n' : Fin 8192)
    (hT : ∀ g : Fin 16, T (ix2 g p) = tw (ix2 g r)) (h0 : ∀ k : Fin 1024, X0 (ix2 p k) = wa (ix2 r k))
    (h1 : ∀ k : Fin 1024, X1 (ix2 p k) = wb (ix2 r k)) (hW : ∀ k : Fin 1024, W (ix2 k n) = prev (ix2 k n')) :
    mix (fun g : Fin 16 => soft (fun g' : Fin 16 => T (ix2 g' p)) g)
        (∑ k : Fin 1024, soft (fun k' : Fin 1024 => X0 (ix2 p k')) k * W (ix2 k n))
        (∑ k : Fin 1024, soft (fun k' : Fin 1024 => X1 (ix2 p k')) k * W (ix2 k n))
      = gate prev wa wb tw r n' := by
  unfold gate
  rw [funext hT, funext h0, funext h1]
  simp only [hW]

end Cert.KernelIdeal.Block

end
-- ==== Proof.KernelArray.lean ====
/-
  The kernel's output array after the run, at the ideal values: the layer function of the argument arrays.

  The grid has 32 points; point `t` works on neurons 128·t … 128·t + 127. Its two selection blocks are rows
  128·t … of the two weight matrices (all 1024 columns), its gate block is columns 128·t … of the gate table (all 16
  rows), the resident block is the whole previous-layer array, and its output block is rows 128·t … of the output
  (all 8192 columns). So what point `t` writes back is block `t` of the layer function of the arrays as the region
  finds them; the 32 output blocks tile the output array, so the array ends as that function everywhere. The one host
  operation before the region only changes the float format of the previous layer's outputs, which is the identity
  here, and the other arrays reach the region as launched.
-/
import proofs.«124827_j16776142258879_1_alg».proof.Proof.Gen.KernelIdeal.Frame
import proofs.«124827_j16776142258879_1_alg».proof.Proof.KernelBlock
import Idealize.ShloMosaic.Lib.Pipeline.Value
import Idealize.ShloMosaic.Lib.StableHlo.Run

noncomputable section

namespace Cert.KernelIdeal.Whole

open Cert.KernelIdeal Cert.KernelIdeal.Gen Cert.KernelIdeal.Block Idealize.ShloMosaic Idealize.ShloMosaic.TcCoe Idealize.SL.Sem
open Idealize.ShloMosaic.ValueIdx Cert.SoftGate
open Idealize.ShloMosaic.Pipeline (Dat)

variable (m : (ℓ : Loc nD τ sig) → Buf (Elt Ideal) ℓ) (ρ : Dev nD → PrngReg)

/-- The printed index maps over the 32 grid points: both selection windows and the gate window move with the output
    window's row block, on their other axis they stay at block 0, and the resident window never moves. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = win0_4.index t (0 : Fin 2)
    ∧ win0_4.index t (1 : Fin 2) = 0 ∧ win0_4.index t (0 : Fin 2) ≤ 31 :=
  (by decide +kernel : ∀ t : Fin grid0.N, _)

/-- Every one of the 32 row blocks of the output is some point's. -/
theorem idx_onto : ∀ q : Fin 32, ∃ t : Fin cfg0.N, win0_4.index t = ![q.val, 0] :=
  (by decide +kernel : ∀ q : Fin 32, ∃ t : Fin grid0.N, win0_4.index t = ![q.val, 0])

/-- The previous layer's outputs reach the region unchanged as extended reals: the one host operation before the
    region only narrows their float format. -/
theorem V_prev (c : Dev nD) :
    (V m c main_v0 : S1024x8192.Idx → EReal) = (m ((c : Thread nD τ).loc main_arg0) : S1024x8192.Idx → EReal) := by
  dsimp only [Gen.V, Gen.hostOps0]
  after_results
  rfl

/-- WHAT POINT `t` WRITES BACK is block `t` of the layer function of the arrays as the region finds them. -/
theorem flushed_eq (c : Dev nD) (t : Fin cfg0.N) :
    (dats m 0 c).flushed 4 t = ((cfg0.win 4).blk t).view.read (Elt Ideal)
      (layer (V m c main_v0) (V m c main_arg1) (V m c main_arg2) (V m c main_arg3)) := by
  show (cfg0.win 4).cut (grid0.coords t) ((dats m 0 c).after 4 t) = _
  rw [after0_4]
  obtain ⟨e00, e01, e10, e11, e20, e21, e30, e31, e41, e40⟩ := idx_facts t
  funext j
  obtain ⟨p, n, rfl⟩ : ∃ (p : Fin 128) (n : Fin 8192), j = ix2 p n := ⟨j 0, j 1, eq_ix2 j⟩
  show out0_4 (iblk m c 0 t) (iblk m c 1 t) (iblk m c 2 t) (iblk m c 3 t) (ix2 p n)
      = gate (V m c main_v0) (V m c main_arg1) (V m c main_arg2) (V m c main_arg3)
          (((cfg0.win 4).blk t).view.emb (ix2 p n) 0) (((cfg0.win 4).blk t).view.emb (ix2 p n) 1)
  refine (out_apply (iblk m c 0 t) (iblk m c 1 t) (iblk m c 2 t) (iblk m c 3 t) p n).trans ?_
  refine mix_eq_gate (iblk m c 3 t) (iblk m c 0 t) (iblk m c 1 t) (iblk m c 2 t) (V m c main_v0) (V m c main_arg1)
    (V m c main_arg2) (V m c main_arg3) p n _ _ (fun g => ?_) (fun k => ?_) (fun k => ?_) (fun k => ?_)
  · -- the gate block's column p is the gate table's column 128·t + p
    show V m c main_arg3 (((cfg0.win 3).blk t).view.emb (ix2 g p))
        = V m c main_arg3 (ix2 g (((cfg0.win 4).blk t).view.emb (ix2 p n) 0))
    refine congrArg (V m c main_arg3) (funext fun a => Fin.ext ?_)
    match a with
    | ⟨0, _⟩ => show win0_3.index t (0 : Fin 2) * 16 + 1 * g.val = g.val; omega
    | ⟨1, _⟩ => show win0_3.index t (1 : Fin 2) * 128 + 1 * p.val = win0_4.index t (0 : Fin 2) * 128 + 1 * p.val; omega
  · -- the first selection block's row p is the first weight matrix's row 128·t + p
    show V m c main_arg1 (((cfg0.win 0).blk t).view.emb (ix2 p k))
        = V m c main_arg1 (ix2 (((cfg0.win 4).blk t).view.emb (ix2 p n) 0) k)
    refine congrArg (V m c main_arg1) (funext fun a => Fin.ext ?_)
    match a with
    | ⟨0, _⟩ => show win0_0.index t (0 : Fin 2) * 128 + 1 * p.val = win0_4.index t (0 : Fin 2) * 128 + 1 * p.val; omega
    | ⟨1, _⟩ => show win0_0.index t (1 : Fin 2) * 1024 + 1 * k.val = k.val; omega
  · -- the second selection block likewise
    show V m c main_arg2 (((cfg0.win 1).blk t).view.emb (ix2 p k))
        = V m c main_arg2 (ix2 (((cfg0.win 4).blk t).view.emb (ix2 p n) 0) k)
    refine congrArg (V m c main_arg2) (funext fun a => Fin.ext ?_)
    match a with
    | ⟨0, _⟩ => show win0_1.index t (0 : Fin 2) * 128 + 1 * p.val = win0_4.index t (0 : Fin 2) * 128 + 1 * p.val; omega
    | ⟨1, _⟩ => show win0_1.index t (1 : Fin 2) * 1024 + 1 * k.val = k.val; omega
  · -- the resident block is the whole array, and the output block spans every column
    show V m c main_v0 (((cfg0.win 2).blk t).view.emb (ix2 k n))
        = V m c main_v0 (ix2 k (((cfg0.win 4).blk t).view.emb (ix2 p n) 1))
    refine congrArg (V m c main_v0) (funext fun a => Fin.ext ?_)
    match a with
    | ⟨0, _⟩ => show win0_2.index t (0 : Fin 2) * 1024 + 1 * k.val = k.val; omega
    | ⟨1, _⟩ => show win0_2.index t (1 : Fin 2) * 8192 + 1 * n.val = win0_4.index t (1 : Fin 2) * 8192 + 1 * n.val; omega

/-- An index of the output array is in point `t`'s block iff each coordinate is in the block's range on its axis. -/
theorem mem_blk (t : Fin cfg0.N) (i : S4096x8192.Idx) :
    i ∈ ((cfg0.win 4).blk t).view.set ↔ ∀ a : Fin 2, win0_4.index t a * S128x8192.size a ≤ (i a).val
      ∧ (i a).val < win0_4.index t a * S128x8192.size a + S128x8192.size a := by
  show i ∈ ((View.whole main_v1).slice (win0_4.rect t)).set ↔ _
  rw [View.set_slice_whole, Rect.mem_set_unit]
  exact Iff.rfl

/-- The 32 output blocks cover the output array: row `r` is in the block of point `r / 128`. -/
theorem cover (i : S4096x8192.Idx) :
    ∃ t : Fin cfg0.N, (cfg0.win 4).flush t = true ∧ i ∈ ((cfg0.win 4).blk t).view.set := by
  have hi0 : (i 0).val < 4096 := (i 0).isLt
  have hi1 : (i 1).val < 8192 := (i 1).isLt
  obtain ⟨t, ht⟩ := idx_onto ⟨(i 0).val / 128, by omega⟩
  have q0 : win0_4.index t (0 : Fin 2) = (i 0).val / 128 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 8192 ≤ (i 1).val ∧ (i 1).val < win0_4.index t (1 : Fin 2) * 8192 + 8192; omega

/-- THE OUTPUT ARRAY after the run is the layer function of the argument arrays as launched. -/
theorem final (c : Dev nD) :
    (dats m 0 c).arrAt 4 cfg0.N
      = layer (m ((c : Thread nD τ).loc main_arg0)) (m ((c : Thread nD τ).loc main_arg1))
          (m ((c : Thread nD τ).loc main_arg2)) (m ((c : Thread nD τ).loc main_arg3)) := by
  refine ((dats m 0 c).arrAt_eq_of_cover 4 _ (fun t _ => flushed_eq m c t) cover).trans ?_
  rw [V_prev m c, V_main_arg1 m c, V_main_arg2 m c, V_main_arg3 m c]

/-- The frame run re-posted: the output array at the layer function of the arguments, the arguments unchanged. -/
theorem run : θ_run defs (onTc (τ := τ) (main (F := Ideal))) ⟨m, fun _ => 0, ρ⟩ fun r => ∀ c : Dev nD,
      r.2.mem ((c : Thread nD τ).loc main_v1)
        = layer (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final m c),
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 3).trans (((dats m 0 c).arrAt_in 3 rfl _).trans ((A_eq m c 3).trans (V_main_arg3 m c)))⟩)
    (run_main m ρ)

end Cert.KernelIdeal.Whole

end
-- ==== Proof.RefSoft.lean ====
/-
  The reference's three softmaxes and its two soft inputs, read at an index, at the ideal values.

  The reference takes a row's (for the gate table: a column's) maximum by a reduce from −∞ and joins the result once
  more with −∞, which changes nothing; it spreads the maximum back, exponentiates the differences, sums them by a
  reduce from 0 and divides. Entry (r, k) of each selection matrix's softmax is the softmax weight of logit `k` in
  row `r`, entry (g, c) of the gate table's is the softmax weight of gate `g` among column `c`'s sixteen logits
  (`Cert.SoftGate.soft`), and each matrix product with the previous layer's outputs is, at (r, n), the sum over k of
  weight (r, k) times prev (k, n).
-/
import proofs.«124827_j16776142258879_1_alg».proof.Proof.Gen.ReferenceIdeal.Read
import proofs.«124827_j16776142258879_1_alg».proof.Proof.SoftGate

noncomputable section

namespace Cert.ReferenceIdeal.Layer

open Cert.ReferenceIdeal Cert.ReferenceIdeal.Gen Cert.ReferenceIdeal.Read Idealize.ShloMosaic Idealize.ShloMosaic.ValueIdx
open Cert.LibMaxReduce Cert.SoftGate

/-- An f32 array of the given shape at the ideal values. -/
abbrev Mat (s : Shape) : Type := (⟨s, .f32⟩ : BufTy).Contents (Elt Ideal)

/-! ## The first selection matrix: its row softmax -/

/-- The reference's maximum reduce read at row `r`: the running maximum from the reduce's initial value, the word of −∞. -/
theorem hostmax1 (x1 : Mat S4096x1024) (r : Fin 4096) :
    val_main_v0 (F := Ideal) x1 (ix1 r) = foldMax (Ideal.ofBits .f32 0xFF800000#32) (fun k : Fin 1024 => x1 (ix2 r k)) :=
  hostReduce_maximumf_lastAxis_apply x1 (val_main_cst (F := Ideal)) reducesTo_S4096x1024_S4096_d1 (by decide) h_S_ r

/-- Joined once more with −∞, as the reference does, it is still that running maximum. -/
theorem max1 (x1 : Mat S4096x1024) (r : Fin 4096) :
    val_main_v2 (F := Ideal) x1 (ix1 r) = foldMax (Ideal.ofBits .f32 0xFF800000#32) (fun k : Fin 1024 => x1 (ix2 r k)) := by
  rw [val_main_v2_apply, val_main_v1_apply, val_main_cst_0_apply, hostmax1 x1 r]
  exact max_foldMax _ _

/-- The shifted exponential at (r, k). -/
theorem exp1 (x1 : Mat S4096x1024) (r : Fin 4096) (k : Fin 1024) :
    val_main_v6 (F := Ideal) x1 (ix2 r k)
      = Ideal.exp (x1 (ix2 r k) - foldMax (Ideal.ofBits .f32 0xFF800000#32) (fun k' : Fin 1024 => x1 (ix2 r k'))) := by
  show Ideal.exp (x1 (ix2 r k) - val_main_v4 (F := Ideal) x1 (ix2 r k)) = _
  rw [val_main_v4_apply, val_main_v3_apply,
    show idx_main_v3 (idx_main_v4 (ix2 r k)) = ix1 r from funext fun a => Fin.ext (by match a with | ⟨0, _⟩ => rfl),
    max1]

/-- The row sum of the shifted exponentials (the reduce starts from the word of 0). -/
theorem sum1 (x1 : Mat S4096x1024) (r : Fin 4096) :
    val_main_v7 (F := Ideal) x1 (ix1 r)
      = ∑ j : Fin 1024, Ideal.exp (x1 (ix2 r j) - foldMax (Ideal.ofBits .f32 0xFF800000#32) (fun k' : Fin 1024 => x1 (ix2 r k'))) := by
  rw [val_main_v7_apply]
  show Ideal.ofBits .f32 0x00000000#32 + _ = _
  rw [Ideal.ofBits_zero_f32, zero_add]
  refine Finset.sum_congr rfl fun j _ => ?_
  rw [show idx_main_v7 (ix1 r) j = ix2 r j from funext fun a => Fin.ext (by match a with | ⟨0, _⟩ => rfl | ⟨1, _⟩ => rfl),
    exp1]

/-- Entry (r, k) of the reference's row softmax is the softmax weight of logit `k` in row `r`. -/
theorem soft1 (x1 : Mat S4096x1024) (r : Fin 4096) (k : Fin 1024) :
    val_main_v10 (F := Ideal) x1 (ix2 r k) = soft (fun k' : Fin 1024 => x1 (ix2 r k')) k := by
  show Ideal.div (val_main_v6 (F := Ideal) x1 (ix2 r k)) (val_main_v9 (F := Ideal) x1 (ix2 r k)) = _
  rw [exp1, val_main_v9_apply, val_main_v8_apply,
    show idx_main_v8 (idx_main_v9 (ix2 r k)) = ix1 r from funext fun a => Fin.ext (by match a with | ⟨0, _⟩ => rfl),
    sum1]
  rfl

/-! ## The second selection matrix: its row softmax -/

/-- The reference's maximum reduce read at row `r`: the running maximum from the reduce's initial value, the word of −∞. -/
theorem hostmax2 (x2 : Mat S4096x1024) (r : Fin 4096) :
    val_main_v11 (F := Ideal) x2 (ix1 r) = foldMax (Ideal.ofBits .f32 0xFF800000#32) (fun k : Fin 1024 => x2 (ix2 r k)) :=
  hostReduce_maximumf_lastAxis_apply x2 (val_main_cst_2 (F := Ideal)) reducesTo_S4096x1024_S4096_d1 (by decide) h_S_ r

/-- Joined once more with −∞, as the reference does, it is still that running maximum. -/
theorem max2 (x2 : Mat S4096x1024) (r : Fin 4096) :
    val_main_v13 (F := Ideal) x2 (ix1 r) = foldMax (Ideal.ofBits .f32 0xFF800000#32) (fun k : Fin 1024 => x2 (ix2 r k)) := by
  rw [val_main_v13_apply, val_main_v12_apply, val_main_cst_3_apply, hostmax2 x2 r]
  exact max_foldMax _ _

/-- The shifted exponential at (r, k). -/
theorem exp2 (x2 : Mat S4096x1024) (r : Fin 4096) (k : Fin 1024) :
    val_main_v17 (F := Ideal) x2 (ix2 r k)
      = Ideal.exp (x2 (ix2 r k) - foldMax (Ideal.ofBits .f32 0xFF800000#32) (fun k' : Fin 1024 => x2 (ix2 r k'))) := by
  show Ideal.exp (x2 (ix2 r k) - val_main_v15 (F := Ideal) x2 (ix2 r k)) = _
  rw [val_main_v15_apply, val_main_v14_apply,
    show idx_main_v14 (idx_main_v15 (ix2 r k)) = ix1 r from funext fun a => Fin.ext (by match a with | ⟨0, _⟩ => rfl),
    max2]

/-- The row sum of the shifted exponentials (the reduce starts from the word of 0). -/
theorem sum2 (x2 : Mat S4096x1024) (r : Fin 4096) :
    val_main_v18 (F := Ideal) x2 (ix1 r)
      = ∑ j : Fin 1024, Ideal.exp (x2 (ix2 r j) - foldMax (Ideal.ofBits .f32 0xFF800000#32) (fun k' : Fin 1024 => x2 (ix2 r k'))) := by
  rw [val_main_v18_apply]
  show Ideal.ofBits .f32 0x00000000#32 + _ = _
  rw [Ideal.ofBits_zero_f32, zero_add]
  refine Finset.sum_congr rfl fun j _ => ?_
  rw [show idx_main_v18 (ix1 r) j = ix2 r j from funext fun a => Fin.ext (by match a with | ⟨0, _⟩ => rfl | ⟨1, _⟩ => rfl),
    exp2]

/-- Entry (r, k) of the reference's row softmax is the softmax weight of logit `k` in row `r`. -/
theorem soft2 (x2 : Mat S4096x1024) (r : Fin 4096) (k : Fin 1024) :
    val_main_v21 (F := Ideal) x2 (ix2 r k) = soft (fun k' : Fin 1024 => x2 (ix2 r k')) k := by
  show Ideal.div (val_main_v17 (F := Ideal) x2 (ix2 r k)) (val_main_v20 (F := Ideal) x2 (ix2 r k)) = _
  rw [exp2, val_main_v20_apply, val_main_v19_apply,
    show idx_main_v19 (idx_main_v20 (ix2 r k)) = ix1 r from funext fun a => Fin.ext (by match a with | ⟨0, _⟩ => rfl),
    sum2]
  rfl

/-! ## The gate table: its column softmax -/

/-- The reference's maximum reduce read at column `c`: the running maximum from the reduce's initial value, the word of −∞. -/
theorem hostmax3 (x3 : Mat S16x4096) (c : Fin 4096) :
    val_main_v22 (F := Ideal) x3 (ix1 c) = foldMax (Ideal.ofBits .f32 0xFF800000#32) (fun g : Fin 16 => x3 (ix2 g c)) :=
  hostReduce_maximumf_firstAxis_apply x3 (val_main_cst_5 (F := Ideal)) reducesTo_S16x4096_S4096_d0 (by decide) h_S_ c

/-- Joined once more with −∞, as the reference does, it is still that running maximum. -/
theorem max3 (x3 : Mat S16x4096) (c : Fin 4096) :
    val_main_v24 (F := Ideal) x3 (ix1 c) = foldMax (Ideal.ofBits .f32 0xFF800000#32) (fun g : Fin 16 => x3 (ix2 g c)) := by
  rw [val_main_v24_apply, val_main_v23_apply, val_main_cst_6_apply, hostmax3 x3 c]
  exact max_foldMax _ _

/-- The shifted exponential at (g, c). -/
theorem exp3 (x3 : Mat S16x4096) (g : Fin 16) (c : Fin 4096) :
    val_main_v28 (F := Ideal) x3 (ix2 g c)
      = Ideal.exp (x3 (ix2 g c) - foldMax (Ideal.ofBits .f32 0xFF800000#32) (fun g' : Fin 16 => x3 (ix2 g' c))) := by
  show Ideal.exp (x3 (ix2 g c) - val_main_v26 (F := Ideal) x3 (ix2 g c)) = _
  rw [val_main_v26_apply, val_main_v25_apply,
    show idx_main_v25 (idx_main_v26 (ix2 g c)) = ix1 c from funext fun a => Fin.ext (by match a with | ⟨0, _⟩ => rfl),
    max3]

/-- The column sum of the shifted exponentials. -/
theorem sum3 (x3 : Mat S16x4096) (c : Fin 4096) :
    val_main_v29 (F := Ideal) x3 (ix1 c)
      = ∑ j : Fin 16, Ideal.exp (x3 (ix2 j c) - foldMax (Ideal.ofBits .f32 0xFF800000#32) (fun g' : Fin 16 => x3 (ix2 g' c))) := by
  rw [val_main_v29_apply]
  show Ideal.ofBits .f32 0x00000000#32 + _ = _
  rw [Ideal.ofBits_zero_f32, zero_add]
  refine Finset.sum_congr rfl fun j _ => ?_
  rw [show idx_main_v29 (ix1 c) j = ix2 j c from funext fun a => Fin.ext (by match a with | ⟨0, _⟩ => rfl | ⟨1, _⟩ => rfl),
    exp3]

/-- Entry (g, c) of the reference's gate weights is the softmax weight of gate `g` among column `c`'s logits. -/
theorem soft3 (x3 : Mat S16x4096) (g : Fin 16) (c : Fin 4096) :
    val_main_v32 (F := Ideal) x3 (ix2 g c) = soft (fun g' : Fin 16 => x3 (ix2 g' c)) g := by
  show Ideal.div (val_main_v28 (F := Ideal) x3 (ix2 g c)) (val_main_v31 (F := Ideal) x3 (ix2 g c)) = _
  rw [exp3, val_main_v31_apply, val_main_v30_apply,
    show idx_main_v30 (idx_main_v31 (ix2 g c)) = ix1 c from funext fun a => Fin.ext (by match a with | ⟨0, _⟩ => rfl),
    sum3]
  rfl

/-! ## The two soft inputs -/

/-- The first soft input at (r, n): the reference's product of the row softmax with the previous layer's outputs. -/
theorem dotA (x0 : Mat S1024x8192) (x1 : Mat S4096x1024) (r : Fin 4096) (n : Fin 8192) :
    val_main_v33 (F := Ideal) x0 x1 (ix2 r n)
      = ∑ k : Fin 1024, soft (fun k' : Fin 1024 => x1 (ix2 r k')) k * x0 (ix2 k n) := by
  rw [val_main_v33_apply]
  refine Finset.sum_congr rfl fun k _ => ?_
  rw [show lidx_main_v33 (ix2 r n) k = ix2 r k from funext fun a => Fin.ext (by match a with | ⟨0, _⟩ => rfl | ⟨1, _⟩ => rfl),
    show ridx_main_v33 (ix2 r n) k = ix2 k n from funext fun a => Fin.ext (by match a with | ⟨0, _⟩ => rfl | ⟨1, _⟩ => rfl),
    soft1]

/-- The second soft input at (r, n): the reference's product of the row softmax with the previous layer's outputs. -/
theorem dotB (x0 : Mat S1024x8192) (x2 : Mat S4096x1024) (r : Fin 4096) (n : Fin 8192) :
    val_main_v34 (F := Ideal) x0 x2 (ix2 r n)
      = ∑ k : Fin 1024, soft (fun k' : Fin 1024 => x2 (ix2 r k')) k * x0 (ix2 k n) := by
  rw [val_main_v34_apply]
  refine Finset.sum_congr rfl fun k _ => ?_
  rw [show lidx_main_v34 (ix2 r n) k = ix2 r k from funext fun a => Fin.ext (by match a with | ⟨0, _⟩ => rfl | ⟨1, _⟩ => rfl),
    show ridx_main_v34 (ix2 r n) k = ix2 k n from funext fun a => Fin.ext (by match a with | ⟨0, _⟩ => rfl | ⟨1, _⟩ => rfl),
    soft2]

end Cert.ReferenceIdeal.Layer

end
-- ==== Proof.RefMix.lean ====
/-
  The reference's fifteen-term sum, read at an index, at the ideal values.

  The reference gives the gate table's softmax a trailing unit axis, cuts out row `g`, reshapes it to a column and
  spreads it over the [4096, 8192] output: read at (r, n) that is the weight of gate `g` for neuron `r`. The
  constants 1 and 2 are scalars spread over the output. Everything else is elementwise, so the result at (r, n) is
  `Cert.SoftGate.mix` of neuron `r`'s gate weights at the two soft inputs' values at (r, n) — and with the three
  softmaxes and the two products read (the sibling module) it is the layer function `Cert.SoftGate.gate` at (r, n).
-/
import proofs.«124827_j16776142258879_1_alg».proof.Proof.Gen.ReferenceIdeal.Read
import proofs.«124827_j16776142258879_1_alg».proof.Proof.RefSoft

noncomputable section

namespace Cert.ReferenceIdeal.Layer

open Cert.ReferenceIdeal Cert.ReferenceIdeal.Gen Cert.ReferenceIdeal.Read Idealize.ShloMosaic Idealize.ShloMosaic.ValueIdx
open Cert.LibMaxReduce Cert.SoftGate

/-! ## Each gate's weights spread over the output -/

/-- Gate 1's weights, cut out of the table's softmax and spread over the output, read at (r, n). -/
theorem gate1 (x3 : Mat S16x4096) (r : Fin 4096) (n : Fin 8192) :
    val_main_v39 (F := Ideal) x3 (ix2 r n) = val_main_v32 (F := Ideal) x3 (ix2 (1 : Fin 16) r) := by
  rw [val_main_v39_apply, val_main_v38_apply, val_main_v37_apply, val_main_v36_apply]
  refine congrArg (val_main_v32 (F := Ideal) x3) (funext fun a => Fin.ext ?_)
  have hr : r.val < 4096 := r.isLt
  match a with
  | ⟨0, _⟩ => rfl
  | ⟨1, _⟩ => show (r.val * 1 + 0) / 1 % 4096 = r.val; omega

/-- Gate 2's weights, cut out of the table's softmax and spread over the output, read at (r, n). -/
theorem gate2 (x3 : Mat S16x4096) (r : Fin 4096) (n : Fin 8192) :
    val_main_v44 (F := Ideal) x3 (ix2 r n) = val_main_v32 (F := Ideal) x3 (ix2 (2 : Fin 16) r) := by
  rw [val_main_v44_apply, val_main_v42_apply, val_main_v41_apply, val_main_v36_apply]
  refine congrArg (val_main_v32 (F := Ideal) x3) (funext fun a => Fin.ext ?_)
  have hr : r.val < 4096 := r.isLt
  match a with
  | ⟨0, _⟩ => rfl
  | ⟨1, _⟩ => show (r.val * 1 + 0) / 1 % 4096 = r.val; omega

/-- Gate 3's weights, cut out of the table's softmax and spread over the output, read at (r, n). -/
theorem gate3 (x3 : Mat S16x4096) (r : Fin 4096) (n : Fin 8192) :
    val_main_v49 (F := Ideal) x3 (ix2 r n) = val_main_v32 (F := Ideal) x3 (ix2 (3 : Fin 16) r) := by
  rw [val_main_v49_apply, val_main_v48_apply, val_main_v47_apply, val_main_v36_apply]
  refine congrArg (val_main_v32 (F := Ideal) x3) (funext fun a => Fin.ext ?_)
  have hr : r.val < 4096 := r.isLt
  match a with
  | ⟨0, _⟩ => rfl
  | ⟨1, _⟩ => show (r.val * 1 + 0) / 1 % 4096 = r.val; omega

/-- Gate 4's weights, cut out of the table's softmax and spread over the output, read at (r, n). -/
theorem gate4 (x3 : Mat S16x4096) (r : Fin 4096) (n : Fin 8192) :
    val_main_v55 (F := Ideal) x3 (ix2 r n) = val_main_v32 (F := Ideal) x3 (ix2 (4 : Fin 16) r) := by
  rw [val_main_v55_apply, val_main_v53_apply, val_main_v52_apply, val_main_v36_apply]
  refine congrArg (val_main_v32 (F := Ideal) x3) (funext fun a => Fin.ext ?_)
  have hr : r.val < 4096 := r.isLt
  match a with
  | ⟨0, _⟩ => rfl
  | ⟨1, _⟩ => show (r.val * 1 + 0) / 1 % 4096 = r.val; omega

/-- Gate 5's weights, cut out of the table's softmax and spread over the output, read at (r, n). -/
theorem gate5 (x3 : Mat S16x4096) (r : Fin 4096) (n : Fin 8192) :
    val_main_v60 (F := Ideal) x3 (ix2 r n) = val_main_v32 (F := Ideal) x3 (ix2 (5 : Fin 16) r) := by
  rw [val_main_v60_apply, val_main_v59_apply, val_main_v58_apply, val_main_v36_apply]
  refine congrArg (val_main_v32 (F := Ideal) x3) (funext fun a => Fin.ext ?_)
  have hr : r.val < 4096 := r.isLt
  match a with
  | ⟨0, _⟩ => rfl
  | ⟨1, _⟩ => show (r.val * 1 + 0) / 1 % 4096 = r.val; omega

/-- Gate 6's weights, cut out of the table's softmax and spread over the output, read at (r, n). -/
theorem gate6 (x3 : Mat S16x4096) (r : Fin 4096) (n : Fin 8192) :
    val_main_v69 (F := Ideal) x3 (ix2 r n) = val_main_v32 (F := Ideal) x3 (ix2 (6 : Fin 16) r) := by
  rw [val_main_v69_apply, val_main_v64_apply, val_main_v63_apply, val_main_v36_apply]
  refine congrArg (val_main_v32 (F := Ideal) x3) (funext fun a => Fin.ext ?_)
  have hr : r.val < 4096 := r.isLt
  match a with
  | ⟨0, _⟩ => rfl
  | ⟨1, _⟩ => show (r.val * 1 + 0) / 1 % 4096 = r.val; omega

/-- Gate 7's weights, cut out of the table's softmax and spread over the output, read at (r, n). -/
theorem gate7 (x3 : Mat S16x4096) (r : Fin 4096) (n : Fin 8192) :
    val_main_v76 (F := Ideal) x3 (ix2 r n) = val_main_v32 (F := Ideal) x3 (ix2 (7 : Fin 16) r) := by
  rw [val_main_v76_apply, val_main_v73_apply, val_main_v72_apply, val_main_v36_apply]
  refine congrArg (val_main_v32 (F := Ideal) x3) (funext fun a => Fin.ext ?_)
  have hr : r.val < 4096 := r.isLt
  match a with
  | ⟨0, _⟩ => rfl
  | ⟨1, _⟩ => show (r.val * 1 + 0) / 1 % 4096 = r.val; omega

/-- Gate 8's weights, cut out of the table's softmax and spread over the output, read at (r, n). -/
theorem gate8 (x3 : Mat S16x4096) (r : Fin 4096) (n : Fin 8192) :
    val_main_v85 (F := Ideal) x3 (ix2 r n) = val_main_v32 (F := Ideal) x3 (ix2 (8 : Fin 16) r) := by
  rw [val_main_v85_apply, val_main_v80_apply, val_main_v79_apply, val_main_v36_apply]
  refine congrArg (val_main_v32 (F := Ideal) x3) (funext fun a => Fin.ext ?_)
  have hr : r.val < 4096 := r.isLt
  match a with
  | ⟨0, _⟩ => rfl
  | ⟨1, _⟩ => show (r.val * 1 + 0) / 1 % 4096 = r.val; omega

/-- Gate 9's weights, cut out of the table's softmax and spread over the output, read at (r, n). -/
theorem gate9 (x3 : Mat S16x4096) (r : Fin 4096) (n : Fin 8192) :
    val_main_v96 (F := Ideal) x3 (ix2 r n) = val_main_v32 (F := Ideal) x3 (ix2 (9 : Fin 16) r) := by
  rw [val_main_v96_apply, val_main_v89_apply, val_main_v88_apply, val_main_v36_apply]
  refine congrArg (val_main_v32 (F := Ideal) x3) (funext fun a => Fin.ext ?_)
  have hr : r.val < 4096 := r.isLt
  match a with
  | ⟨0, _⟩ => rfl
  | ⟨1, _⟩ => show (r.val * 1 + 0) / 1 % 4096 = r.val; omega

/-- Gate 10's weights, cut out of the table's softmax and spread over the output, read at (r, n). -/
theorem gate10 (x3 : Mat S16x4096) (r : Fin 4096) (n : Fin 8192) :
    val_main_v103 (F := Ideal) x3 (ix2 r n) = val_main_v32 (F := Ideal) x3 (ix2 (10 : Fin 16) r) := by
  rw [val_main_v103_apply, val_main_v100_apply, val_main_v99_apply, val_main_v36_apply]
  refine congrArg (val_main_v32 (F := Ideal) x3) (funext fun a => Fin.ext ?_)
  have hr : r.val < 4096 := r.isLt
  match a with
  | ⟨0, _⟩ => rfl
  | ⟨1, _⟩ => show (r.val * 1 + 0) / 1 % 4096 = r.val; omega

/-- Gate 11's weights, cut out of the table's softmax and spread over the output, read at (r, n). -/
theorem gate11 (x3 : Mat S16x4096) (r : Fin 4096) (n : Fin 8192) :
    val_main_v111 (F := Ideal) x3 (ix2 r n) = val_main_v32 (F := Ideal) x3 (ix2 (11 : Fin 16) r) := by
  rw [val_main_v111_apply, val_main_v107_apply, val_main_v106_apply, val_main_v36_apply]
  refine congrArg (val_main_v32 (F := Ideal) x3) (funext fun a => Fin.ext ?_)
  have hr : r.val < 4096 := r.isLt
  match a with
  | ⟨0, _⟩ => rfl
  | ⟨1, _⟩ => show (r.val * 1 + 0) / 1 % 4096 = r.val; omega

/-- Gate 12's weights, cut out of the table's softmax and spread over the output, read at (r, n). -/
theorem gate12 (x3 : Mat S16x4096) (r : Fin 4096) (n : Fin 8192) :
    val_main_v118 (F := Ideal) x3 (ix2 r n) = val_main_v32 (F := Ideal) x3 (ix2 (12 : Fin 16) r) := by
  rw [val_main_v118_apply, val_main_v115_apply, val_main_v114_apply, val_main_v36_apply]
  refine congrArg (val_main_v32 (F := Ideal) x3) (funext fun a => Fin.ext ?_)
  have hr : r.val < 4096 := r.isLt
  match a with
  | ⟨0, _⟩ => rfl
  | ⟨1, _⟩ => show (r.val * 1 + 0) / 1 % 4096 = r.val; omega

/-- Gate 13's weights, cut out of the table's softmax and spread over the output, read at (r, n). -/
theorem gate13 (x3 : Mat S16x4096) (r : Fin 4096) (n : Fin 8192) :
    val_main_v126 (F := Ideal) x3 (ix2 r n) = val_main_v32 (F := Ideal) x3 (ix2 (13 : Fin 16) r) := by
  rw [val_main_v126_apply, val_main_v122_apply, val_main_v121_apply, val_main_v36_apply]
  refine congrArg (val_main_v32 (F := Ideal) x3) (funext fun a => Fin.ext ?_)
  have hr : r.val < 4096 := r.isLt
  match a with
  | ⟨0, _⟩ => rfl
  | ⟨1, _⟩ => show (r.val * 1 + 0) / 1 % 4096 = r.val; omega

/-- Gate 14's weights, cut out of the table's softmax and spread over the output, read at (r, n). -/
theorem gate14 (x3 : Mat S16x4096) (r : Fin 4096) (n : Fin 8192) :
    val_main_v133 (F := Ideal) x3 (ix2 r n) = val_main_v32 (F := Ideal) x3 (ix2 (14 : Fin 16) r) := by
  rw [val_main_v133_apply, val_main_v130_apply, val_main_v129_apply, val_main_v36_apply]
  refine congrArg (val_main_v32 (F := Ideal) x3) (funext fun a => Fin.ext ?_)
  have hr : r.val < 4096 := r.isLt
  match a with
  | ⟨0, _⟩ => rfl
  | ⟨1, _⟩ => show (r.val * 1 + 0) / 1 % 4096 = r.val; omega

/-- Gate 15's weights, cut out of the table's softmax and spread over the output, read at (r, n). -/
theorem gate15 (x3 : Mat S16x4096) (r : Fin 4096) (n : Fin 8192) :
    val_main_v138 (F := Ideal) x3 (ix2 r n) = val_main_v32 (F := Ideal) x3 (ix2 (15 : Fin 16) r) := by
  rw [val_main_v138_apply, val_main_v137_apply, val_main_v136_apply, val_main_v36_apply]
  refine congrArg (val_main_v32 (F := Ideal) x3) (funext fun a => Fin.ext ?_)
  have hr : r.val < 4096 := r.isLt
  match a with
  | ⟨0, _⟩ => rfl
  | ⟨1, _⟩ => show (r.val * 1 + 0) / 1 % 4096 = r.val; omega

/-! ## The scalar constants spread over the output -/

theorem const66 (i : S4096x8192.Idx) : val_main_v66 (F := Ideal) i = two := by
  rw [val_main_v66_apply, val_main_cst_8_apply]; rfl

theorem const83 (i : S4096x8192.Idx) : val_main_v83 (F := Ideal) i = one := by
  rw [val_main_v83_apply, val_main_cst_9_apply]; rfl

theorem const91 (i : S4096x8192.Idx) : val_main_v91 (F := Ideal) i = two := by
  rw [val_main_v91_apply, val_main_cst_10_apply]; rfl

theorem const94 (i : S4096x8192.Idx) : val_main_v94 (F := Ideal) i = one := by
  rw [val_main_v94_apply, val_main_cst_11_apply]; rfl

theorem const101 (i : S4096x8192.Idx) : val_main_v101 (F := Ideal) i = one := by
  rw [val_main_v101_apply, val_main_cst_12_apply]; rfl

theorem const108 (i : S4096x8192.Idx) : val_main_v108 (F := Ideal) i = one := by
  rw [val_main_v108_apply, val_main_cst_13_apply]; rfl

theorem const116 (i : S4096x8192.Idx) : val_main_v116 (F := Ideal) i = one := by
  rw [val_main_v116_apply, val_main_cst_14_apply]; rfl

theorem const123 (i : S4096x8192.Idx) : val_main_v123 (F := Ideal) i = one := by
  rw [val_main_v123_apply, val_main_cst_15_apply]; rfl

theorem const131 (i : S4096x8192.Idx) : val_main_v131 (F := Ideal) i = one := by
  rw [val_main_v131_apply, val_main_cst_16_apply]; rfl

/-! ## The sum -/

/-- The reference's result at (r, n) is the mix of neuron `r`'s gate weights at the two soft inputs there. -/
theorem mix_ref (x0 : Mat S1024x8192) (x1 x2 : Mat S4096x1024) (x3 : Mat S16x4096) (r : Fin 4096) (n : Fin 8192) :
    val_main_v139 (F := Ideal) x0 x1 x2 x3 (ix2 r n)
      = mix (fun g : Fin 16 => val_main_v32 (F := Ideal) x3 (ix2 g r)) (val_main_v33 (F := Ideal) x0 x1 (ix2 r n))
          (val_main_v34 (F := Ideal) x0 x2 (ix2 r n)) := by
  simp only [val_main_v35_apply, val_main_v40_apply, val_main_v43_apply, val_main_v45_apply, val_main_v46_apply, val_main_v50_apply, val_main_v51_apply, val_main_v54_apply, val_main_v56_apply, val_main_v57_apply, val_main_v61_apply, val_main_v62_apply, val_main_v65_apply, val_main_v67_apply, val_main_v68_apply, val_main_v70_apply, val_main_v71_apply, val_main_v74_apply, val_main_v75_apply, val_main_v77_apply, val_main_v78_apply, val_main_v81_apply, val_main_v82_apply, val_main_v84_apply, val_main_v86_apply, val_main_v87_apply, val_main_v90_apply, val_main_v92_apply, val_main_v93_apply, val_main_v95_apply, val_main_v97_apply, val_main_v98_apply, val_main_v102_apply, val_main_v104_apply, val_main_v105_apply, val_main_v109_apply, val_main_v110_apply, val_main_v112_apply, val_main_v113_apply, val_main_v117_apply, val_main_v119_apply, val_main_v120_apply, val_main_v124_apply, val_main_v125_apply, val_main_v127_apply, val_main_v128_apply, val_main_v132_apply, val_main_v134_apply, val_main_v135_apply, val_main_v139_apply,
    gate1, gate2, gate3, gate4, gate5, gate6, gate7, gate8, gate9, gate10, gate11, gate12, gate13, gate14, gate15,
    const66, const83, const91, const94, const101, const108, const116, const123, const131,
    Ideal.addf_def, Ideal.subf_def, Ideal.mulf_def]
  generalize val_main_v33 (F := Ideal) x0 x1 (ix2 r n) = A
  generalize val_main_v34 (F := Ideal) x0 x2 (ix2 r n) = B
  generalize val_main_v32 (F := Ideal) x3 = P
  rfl

/-- The reference's result at (r, n) is the layer function of its four arguments there. -/
theorem gate_ref (x0 : Mat S1024x8192) (x1 x2 : Mat S4096x1024) (x3 : Mat S16x4096) (r : Fin 4096) (n : Fin 8192) :
    val_main_v139 (F := Ideal) x0 x1 x2 x3 (ix2 r n) = gate x0 x1 x2 x3 r n := by
  rw [mix_ref, dotA, dotB]
  unfold gate
  exact congrArg (fun f : Fin 16 → EReal => mix f _ _) (funext fun g => soft3 x3 g r)

/-- The reference's whole result array is the layer function of its four arguments. -/
theorem layer_ref (x0 : Mat S1024x8192) (x1 x2 : Mat S4096x1024) (x3 : Mat S16x4096) :
    val_main_v139 (F := Ideal) x0 x1 x2 x3 = layer x0 x1 x2 x3 := by
  funext i
  obtain ⟨r, n, rfl⟩ : ∃ (r : Fin 4096) (n : Fin 8192), i = ix2 r n := ⟨i 0, i 1, eq_ix2 i⟩
  exact gate_ref x0 x1 x2 x3 r n

end Cert.ReferenceIdeal.Layer

end
-- ==== Proof.lean ====
/-
  The soft logic-gate layer: the tiled kernel against the whole-array reference, equal on the extended reals.

  Both programs compute, for neuron `r` and batch column `n`, the function `Cert.SoftGate.gate`: softmax weights of
  the neuron's two rows of selection logits, the two soft inputs a, b as those weights' sums against column `n` of the
  previous layer's outputs, softmax weights of the neuron's sixteen gate logits, and the weighted sum of the fifteen
  soft gates at (a, b). The kernel does it 128 neurons at a time over a grid of 32 points, with its matrix products
  taken on operands narrowed to a 16-bit float format (the identity on the extended reals) and its maxima and sums as
  vector reductions; the reference does it on whole arrays with host reductions and joins each maximum once more with
  −∞ (which changes nothing). Every step is the same exact operation on the same values, so the two results are equal
  element by element with no appeal to finiteness of the inputs: the precondition is never opened.

  • `Cert.KernelIdeal.Whole.run`: the idealized kernel's run ends with its output array at `Cert.SoftGate.layer` of
    the four argument arrays (the body's stored value read at an index; each point's write-back as a block of that
    function; the 32 blocks tile the output).
  • `Cert.ReferenceIdeal.Layer.layer_ref`: the reference's result term is the same function of its arguments.
  • The three frames are the generated frame runs (the reference's: its generated run with the result dropped); the
    idealization rewrote no operation, so `preserves` holds trivially.
-/
import proofs.«124827_j16776142258879_1_alg».proof.Defs
import proofs.«124827_j16776142258879_1_alg».proof.Proof.Gen.Kernel
import proofs.«124827_j16776142258879_1_alg».proof.Proof.Gen.Kernel.Frame
import proofs.«124827_j16776142258879_1_alg».proof.Proof.Gen.KernelIdeal
import proofs.«124827_j16776142258879_1_alg».proof.Proof.Gen.KernelIdeal.Frame
import proofs.«124827_j16776142258879_1_alg».proof.Proof.Gen.ReferenceIdeal
import proofs.«124827_j16776142258879_1_alg».proof.Proof.Gen.Pre_finite_inputs
import proofs.«124827_j16776142258879_1_alg».proof.Proof.Gen.ReferenceIdeal.Run
import proofs.«124827_j16776142258879_1_alg».proof.Proof.Gen.ReferenceIdeal.Read
import proofs.«124827_j16776142258879_1_alg».proof.Proof.KernelArray
import proofs.«124827_j16776142258879_1_alg».proof.Proof.RefMix

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the four arguments both programs end with their result array at the layer function of
    those arguments. -/
theorem algebraic : Cert.algebraic_KernelIdeal_ReferenceIdeal := by
  intro m ρ m' ρ' _ hagree
  refine ⟨fun c => Cert.SoftGate.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v139_eq, Cert.ReferenceIdeal.Layer.layer_ref,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
